-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x600000 : Shape := ⟨2, ![2, 600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S131x128 : S_.BroadcastsInDim S131x128 (![] : Fin 0 → Fin S131x128.rank)
  reducesTo_S131x128_S_d0_1 : S131x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x3 .f32) (main_arg6 : FVec F S3 .f32) (main_arg7 : FVec F S131x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x3 .f32 := Host.absf main_arg5
  let main_cst_6 : FVec F S_ .f32 := constant S_ .f32 0x7F800000#32
  let main_v20 : FVec F S128x3 .f32 := broadcastInDim S128x3 ![] bcast_S_S128x3 main_cst_6
  let main_v21 : IVec S128x3 1 := cmpf .olt main_v19 main_v20
  let main_c_7 : IVec S_ 1 := constantI S_ 1 1#1
  let main_v22 : IVec S_ 1 := (fun x v => Host.reduce IntOp.andi x v reducesTo_S128x3_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S131x128 .f32 := Host.absf main_arg7
  let main_cst_10 : FVec F S_ .f32 := constant S_ .f32 0x7F800000#32
  let main_v30 : FVec F S131x128 .f32 := broadcastInDim S131x128 ![] bcast_S_S131x128 main_cst_10
  let main_v31 : IVec S131x128 1 := cmpf .olt main_v29 main_v30
  let main_c_11 : IVec S_ 1 := constantI S_ 1 1#1
  let main_v32 : IVec S_ 1 := (fun x v => Host.reduce IntOp.andi x v reducesTo_S131x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : FVec F S50000x3 .f32) (main_arg2 : IVec S2x600000 32) (main_arg3 : FVec F S128x128 .f32) (main_arg4 : FVec F S128 .f32) (main_arg5 : FVec F S128x3 .f32) (main_arg6 : FVec F S3 .f32) (main_arg7 : FVec F S131x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S50000x3 : Shape := ⟨2, ![50000, 3]⟩
abbrev S2x600000 : Shape := ⟨2, ![2, 600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S1x600000 : Shape := ⟨2, ![1, 600000]⟩
abbrev S600000 : Shape := ⟨1, ![600000]⟩
abbrev S2000x128 : Shape := ⟨2, ![2000, 128]⟩
abbrev S2000x3 : Shape := ⟨2, ![2000, 3]⟩
abbrev S1x128 : Shape := ⟨2, ![1, 128]⟩
abbrev S1x3 : Shape := ⟨2, ![1, 3]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S600000x131 : Shape := ⟨2, ![600000, 131]⟩
abbrev S6000x131 : Shape := ⟨2, ![6000, 131]⟩
abbrev S6000x128 : Shape := ⟨2, ![6000, 128]⟩

abbrev nBuf : Space → Nat
  | .hbm => 63
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S131x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S50000x3, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x3, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x3, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x3, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S600000x3, .f32⟩
  | .hbm, ⟨55, _⟩ => ⟨S600000x3, .f32⟩
  | .hbm, ⟨56, _⟩ => ⟨S600000x131, .f32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x3, .f32⟩
  | .local _ .vmem, ⟨5, _⟩ => ⟨S3, .f32⟩
  | .local _ .vmem, ⟨6, _⟩ => ⟨S2000x3, .f32⟩
  | .local _ .vmem, ⟨7, _⟩ => ⟨S2000x3, .f32⟩
  | .local _ .vmem, ⟨8, _⟩ => ⟨S6000x131, .f32⟩
  | .local _ .vmem, ⟨9, _⟩ => ⟨S6000x131, .f32⟩
  | .local _ .vmem, ⟨10, _⟩ => ⟨S131x128, .f32⟩
  | .local _ .vmem, ⟨11, _⟩ => ⟨S128, .f32⟩
  | .local _ .vmem, ⟨12, _⟩ => ⟨S6000x128, .f32⟩
  | .local _ .vmem, ⟨13, _⟩ => ⟨S6000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x131 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S131x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  bcast_S_S600000 : S_.BroadcastsInDim S600000 (![] : Fin 0 → Fin S600000.rank)
  bcast_S600000_S600000x1_0 : S600000.BroadcastsInDim S600000x1 (![0] : Fin 1 → Fin S600000x1.rank)
  concatenates_S600000x3_S600000x128_S600000x131_d1 : Shape.Concatenates [S600000x3, S600000x128] S600000x131 1
  inb_S6000x131_S6000x131_0_0 : ∀ a, (![0, 0] : Fin 2 → Nat) a + S6000x131.size a ≤ S6000x131.size a
  h_S6000x131 : 0 < S6000x131.numel
  shapeCasts_S6000x131_S6000x131 : S6000x131.ShapeCasts S6000x131
  inb_S131x128_S131x128_0_0 : ∀ a, (![0, 0] : Fin 2 → Nat) a + S131x128.size a ≤ S131x128.size a
  h_S131x128 : 0 < S131x128.numel
  broadcasts_S1x128_S6000x128 : S1x128.Broadcasts S6000x128
  inb_S6000x128_S6000x128_0_0 : ∀ a, (![0, 0] : Fin 2 → Nat) a + S6000x128.size a ≤ S6000x128.size a
  h_S6000x128 : 0 < S6000x128.numel
  bcast_S_S50000x128 : S_.BroadcastsInDim S50000x128 (![] : Fin 0 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  dot_S2000x128_S128x3_S2000x3_1_0_0_1_n_n_wf : DotDims.WF S2000x128 S128x3 S2000x3 [1] [0] [0] [1] [] []
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S6000x131_S131x128_S6000x128_1_0_0_1_n_n_wf : DotDims.WF S6000x131 S131x128 S6000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S128x3.size a
  hwx0_3 : ∀ i : grid0.Coords, EltTy.bits .f32 = 32 ∨ (Rect.block (s := S128x3) S128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x3.size a ≤ S50000x3.size a
  hwx0_5 : ∀ i : grid0.Coords, EltTy.bits .f32 = 32 ∨ (Rect.block (s := S50000x3) S2000x3.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x131.size a ≤ S600000x131.size a
  hwx1_0 : ∀ i : grid1.Coords, EltTy.bits .f32 = 32 ∨ (Rect.block (s := S600000x131) S6000x131.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S131x128.size a ≤ S131x128.size a
  hwx1_1 : ∀ i : grid1.Coords, EltTy.bits .f32 = 32 ∨ (Rect.block (s := S131x128) S131x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S600000x128.size a
  hwx1_3 : ∀ i : grid1.Coords, EltTy.bits .f32 = 32 ∨ (Rect.block (s := S600000x128) S6000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x131_S131x128_S6000x128_1_0_0_1_n_n : DotDims S6000x131 S131x128 S6000x128 where
  lhsContracting := [1]
  rhsContracting := [0]
  lhsNonContracting := [0]
  rhsNonContracting := [1]
  lhsBatch := []
  rhsBatch := []
  wf := dot_S6000x131_S131x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S6000x131.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S131x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S6000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x600000 : Shape := ⟨2, ![2, 600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S1x3 : Shape := ⟨2, ![1, 3]⟩
abbrev S600000x1 : Shape := ⟨2, ![600000, 1]⟩
abbrev S600000x3 : Shape := ⟨2, ![600000, 3]⟩
abbrev S600000x128 : Shape := ⟨2, ![600000, 128]⟩
abbrev S600000x131 : Shape := ⟨2, ![600000, 131]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S131x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S50000x3, .f32⟩
  | .hbm, ⟨25, _⟩ => ⟨S1x3, .f32⟩
  | .hbm, ⟨26, _⟩ => ⟨S50000x3, .f32⟩
  | .hbm, ⟨27, _⟩ => ⟨S50000x3, .f32⟩
  | .hbm, ⟨28, _⟩ => ⟨S50000x3, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x3, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x3, .f32⟩
  | .hbm, ⟨47, _⟩ => ⟨S600000x3, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x3, .f32⟩
  | .hbm, ⟨57, _⟩ => ⟨S600000x3, .f32⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S600000x1, .i32⟩
  | .hbm, ⟨66, _⟩ => ⟨S600000x128, .f32⟩
  | .hbm, ⟨67, _⟩ => ⟨S600000x131, .f32⟩
  | .hbm, ⟨68, _⟩ => ⟨S600000x128, .f32⟩
  | .hbm, ⟨69, _⟩ => ⟨S1x128, .f32⟩
  | .hbm, ⟨70, _⟩ => ⟨S600000x128, .f32⟩
  | .hbm, ⟨71, _⟩ => ⟨S600000x128, .f32⟩
  | .hbm, ⟨72, _⟩ => ⟨S_, .f32⟩
  | .hbm, ⟨73, _⟩ => ⟨S600000x128, .f32⟩
  | .hbm, ⟨74, _⟩ => ⟨S600000x128, .f32⟩
  | .hbm, ⟨75, _⟩ => ⟨S_, .f32⟩
  | .hbm, ⟨76, _⟩ => ⟨S50000x128, .f32⟩
  | .hbm, ⟨77, _⟩ => ⟨S600000x1, .i32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_3 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_cst : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call2_cst : Ref sig .tc := ⟨.hbm, 83, rfl⟩
abbrev main_call2_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  bcast_S_S600000 : S_.BroadcastsInDim S600000 (![] : Fin 0 → Fin S600000.rank)
  bcast_S600000_S600000x1_0 : S600000.BroadcastsInDim S600000x1 (![0] : Fin 1 → Fin S600000x1.rank)
  concatenates_S600000x3_S600000x128_S600000x131_d1 : Shape.Concatenates [S600000x3, S600000x128] S600000x131 1
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  dot_S50000x128_S128x128_S50000x128_1_0_0_1_n_n_wf : DotDims.WF S50000x128 S128x128 S50000x128 [1] [0] [0] [1] [] []
  dot_S50000x128_S128x3_S50000x3_1_0_0_1_n_n_wf : DotDims.WF S50000x128 S128x3 S50000x3 [1] [0] [0] [1] [] []
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S600000x131_S131x128_S600000x128_1_0_0_1_n_n_wf : DotDims.WF S600000x131 S131x128 S600000x128 [1] [0] [0] [1] [] []
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x131_S131x128_S600000x128_1_0_0_1_n_n : DotDims S600000x131 S131x128 S600000x128 where
  lhsContracting := [1]
  rhsContracting := [0]
  lhsNonContracting := [0]
  rhsNonContracting := [1]
  lhsBatch := []
  rhsBatch := []
  wf := dot_S600000x131_S131x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The kernel program's run, with its result named.

  The program is three kernels among stretches of host operations. Its run is read segment by segment: the contents
  of the buffers at each boundary are a fold through the program from the launch memory, and the last boundary's
  contents are what every buffer holds in the final state. So the result array ends at the last boundary's contents
  of its buffer, and the thirteen argument arrays end as launched.
-/
import proofs.«170734_j31774168056050_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in its final state the result array holds
    the last boundary's contents of its buffer, and every argument array what it held at launch. -/
theorem run : θ_run defs (onTc (τ := τ) (main (F := F))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.KernelRun

end
-- ==== Proof.Spec.lean ====
/-
  The three multilayer perceptrons of the message-passing layer, as functions over the extended reals.

  A dense layer applied to one row `xr` of length K is `j ↦ (Σ_k xr k · w (k, j)) + b j`; a rectifier is the
  maximum with zero. Each perceptron acts on its input row by row, so it is stated for an arbitrary number R of
  rows: the same definition then describes a tile of rows and the whole array, and two inputs that agree on a row
  give results that agree on that row (the `_congr` lemmas).

    offsets  : tanh (dense (relu (dense x_r w1 b1)) w2 b2)          rows of length 128 to rows of length 3
    messages : relu (dense e_r w b)                                  rows of length 131 to rows of length 128
    update   : x_r + dense (relu (dense a_r w1 b1)) w2 b2            rows of length 128 to rows of length 128

  Zero is kept as the float word of all zero bits; the two programs use the same word, so it is never evaluated.
-/
import Idealize.ShloMosaic.PureOps.Ideal
import Idealize.ShloMosaic.Lib.ValueIdx

noncomputable section

open scoped BigOperators

namespace Cert.Mlp

open Idealize.ShloMosaic Idealize.ShloMosaic.ValueIdx

/-- One dense layer on one row: the row times the weight matrix's column `j`, plus the bias at `j`. -/
def dense {K N : Nat} (xr : Fin K → EReal) (w : FVec Ideal ⟨2, ![K, N]⟩ .f32) (b : FVec Ideal ⟨1, ![N]⟩ .f32)
    (j : Fin N) : EReal :=
  (∑ k : Fin K, xr k * w (ix2 k j)) + b (ix1 j)

/-- The rectifier: the maximum with (the float word) zero. -/
def relu (x : EReal) : EReal := max x (Ideal.ofBits .f32 0x00000000#32)

/-- The offsets: two dense layers with a rectifier between them, then the hyperbolic tangent. -/
def offsets {R : Nat} (x : FVec Ideal ⟨2, ![R, 128]⟩ .f32) (w1 : FVec Ideal ⟨2, ![128, 128]⟩ .f32)
    (b1 : FVec Ideal ⟨1, ![128]⟩ .f32) (w2 : FVec Ideal ⟨2, ![128, 3]⟩ .f32) (b2 : FVec Ideal ⟨1, ![3]⟩ .f32) :
    FVec Ideal ⟨2, ![R, 3]⟩ .f32 :=
  fun i => Ideal.tanh (dense (fun k => relu (dense (fun l => x (ix2 (i 0) l)) w1 b1 k)) w2 b2 (i 1))

/-- The messages: one dense layer and a rectifier. -/
def messages {R : Nat} (e : FVec Ideal ⟨2, ![R, 131]⟩ .f32) (w : FVec Ideal ⟨2, ![131, 128]⟩ .f32)
    (b : FVec Ideal ⟨1, ![128]⟩ .f32) : FVec Ideal ⟨2, ![R, 128]⟩ .f32 :=
  fun i => relu (dense (fun l => e (ix2 (i 0) l)) w b (i 1))

/-- The update: the node's features plus two dense layers (a rectifier between them) of its aggregated messages. -/
def update {R : Nat} (a x : FVec Ideal ⟨2, ![R, 128]⟩ .f32) (w1 : FVec Ideal ⟨2, ![128, 128]⟩ .f32)
    (b1 : FVec Ideal ⟨1, ![128]⟩ .f32) (w2 : FVec Ideal ⟨2, ![128, 128]⟩ .f32) (b2 : FVec Ideal ⟨1, ![128]⟩ .f32) :
    FVec Ideal ⟨2, ![R, 128]⟩ .f32 :=
  fun i => x i + dense (fun k => relu (dense (fun l => a (ix2 (i 0) l)) w1 b1 k)) w2 b2 (i 1)

/-- A dense layer depends only on the row, the weights and the bias it is given, entry by entry. -/
theorem dense_congr {K N : Nat} {xr xr' : Fin K → EReal} {w w' : FVec Ideal ⟨2, ![K, N]⟩ .f32}
    {b b' : FVec Ideal ⟨1, ![N]⟩ .f32} (hx : ∀ k, xr k = xr' k) (hw : ∀ y, w y = w' y) (hb : ∀ y, b y = b' y)
    (j : Fin N) : dense xr w b j = dense xr' w' b' j := by
  unfold dense
  rw [hb, Finset.sum_congr rfl fun k _ => by rw [hx k, hw]]

/-- The offsets at a row and a column depend on the input only through that row: a tile's row `j 0` that holds the
    array's row `i 0`, with the same weights, gives the array's result at `(i 0, i 1)` at the tile's `(j 0, j 1)`. -/
theorem offsets_congr {R R' : Nat} {x : FVec Ideal ⟨2, ![R, 128]⟩ .f32} {x' : FVec Ideal ⟨2, ![R', 128]⟩ .f32}
    {w1 w1' : FVec Ideal ⟨2, ![128, 128]⟩ .f32} {b1 b1' : FVec Ideal ⟨1, ![128]⟩ .f32}
    {w2 w2' : FVec Ideal ⟨2, ![128, 3]⟩ .f32} {b2 b2' : FVec Ideal ⟨1, ![3]⟩ .f32}
    (j : (⟨2, ![R, 3]⟩ : Shape).Idx) (i : (⟨2, ![R', 3]⟩ : Shape).Idx)
    (hx : ∀ l : Fin 128, x (ix2 (j 0) l) = x' (ix2 (i 0) l)) (hcol : (j 1).val = (i 1).val)
    (hw1 : ∀ y, w1 y = w1' y) (hb1 : ∀ y, b1 y = b1' y) (hw2 : ∀ y, w2 y = w2' y) (hb2 : ∀ y, b2 y = b2' y) :
    offsets x w1 b1 w2 b2 j = offsets x' w1' b1' w2' b2' i := by
  unfold offsets
  have hc : (j 1 : Fin 3) = i 1 := Fin.ext hcol
  show Ideal.tanh (dense _ w2 b2 (j 1 : Fin 3)) = Ideal.tanh (dense _ w2' b2' (i 1 : Fin 3))
  rw [hc]
  exact congrArg Ideal.tanh (dense_congr (fun k => congrArg relu (dense_congr hx hw1 hb1 k)) hw2 hb2 _)

/-- The messages at a row and a column depend on the input only through that row. -/
theorem messages_congr {R R' : Nat} {e : FVec Ideal ⟨2, ![R, 131]⟩ .f32} {e' : FVec Ideal ⟨2, ![R', 131]⟩ .f32}
    {w w' : FVec Ideal ⟨2, ![131, 128]⟩ .f32} {b b' : FVec Ideal ⟨1, ![128]⟩ .f32}
    (j : (⟨2, ![R, 128]⟩ : Shape).Idx) (i : (⟨2, ![R', 128]⟩ : Shape).Idx)
    (he : ∀ l : Fin 131, e (ix2 (j 0) l) = e' (ix2 (i 0) l)) (hcol : (j 1).val = (i 1).val)
    (hw : ∀ y, w y = w' y) (hb : ∀ y, b y = b' y) :
    messages e w b j = messages e' w' b' i := by
  unfold messages
  have hc : (j 1 : Fin 128) = i 1 := Fin.ext hcol
  show relu (dense _ w b (j 1 : Fin 128)) = relu (dense _ w' b' (i 1 : Fin 128))
  rw [hc]
  exact congrArg relu (dense_congr he hw hb _)

/-- The update at a row and a column depends on the aggregated messages only through that row, and on the node's
    features only through that entry. -/
theorem update_congr {R R' : Nat} {a x : FVec Ideal ⟨2, ![R, 128]⟩ .f32} {a' x' : FVec Ideal ⟨2, ![R', 128]⟩ .f32}
    {w1 w1' : FVec Ideal ⟨2, ![128, 128]⟩ .f32} {b1 b1' : FVec Ideal ⟨1, ![128]⟩ .f32}
    {w2 w2' : FVec Ideal ⟨2, ![128, 128]⟩ .f32} {b2 b2' : FVec Ideal ⟨1, ![128]⟩ .f32}
    (j : (⟨2, ![R, 128]⟩ : Shape).Idx) (i : (⟨2, ![R', 128]⟩ : Shape).Idx)
    (ha : ∀ l : Fin 128, a (ix2 (j 0) l) = a' (ix2 (i 0) l)) (hxx : x j = x' i) (hcol : (j 1).val = (i 1).val)
    (hw1 : ∀ y, w1 y = w1' y) (hb1 : ∀ y, b1 y = b1' y) (hw2 : ∀ y, w2 y = w2' y) (hb2 : ∀ y, b2 y = b2' y) :
    update a x w1 b1 w2 b2 j = update a' x' w1' b1' w2' b2' i := by
  unfold update
  have hc : (j 1 : Fin 128) = i 1 := Fin.ext hcol
  show x j + dense _ w2 b2 (j 1 : Fin 128) = x' i + dense _ w2' b2' (i 1 : Fin 128)
  rw [hc, hxx]
  exact congrArg (x' i + ·) (dense_congr (fun k => congrArg relu (dense_congr ha hw1 hb1 k)) hw2 hb2 _)

end Cert.Mlp

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.Payload.lean ====
/-
  What each kernel body stores is its perceptron of the tiles it loaded.

  At the exact instance a change of float format is the identity, a matrix product into a zero accumulator is the
  row-by-column sum, the bias vector cast to one row and broadcast over the tile's rows reads the bias at the column,
  and the maximum with a zero splat is the rectifier. So, entry by entry, the stored value of the first body is the
  offsets of its 2000-row tile, that of the second the messages of its 6000-row tile, and that of the third the
  update of its 2000-row tiles.
-/
import proofs.«170734_j31774168056050_1_alg».proof.Proof.Gen.KernelIdeal.Skeleton
import proofs.«170734_j31774168056050_1_alg».proof.Proof.Spec
import proofs.«170734_j31774168056050_1_alg».proof.Proof.LibMatmulPlain
import Idealize.ShloMosaic.Lib.Pipeline.Value
import Idealize.ShloMosaic.Lib.ValueLayout

noncomputable section

open scoped BigOperators

namespace Cert.KernelIdeal.Payload

open Cert.KernelIdeal Cert.KernelIdeal.Gen Idealize.ShloMosaic Idealize.ShloMosaic.ValueIdx

/-- A bias vector of length `b` cast to one row and broadcast over `a` rows reads, at `(p, q)`, the bias at `q`. -/
theorem bias_apply {a b : ℕ} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- One dense layer of a tile, as the body computes it: the product of the tile (its format changed) with the
    weights (their format changed) into a zero accumulator, plus the broadcast bias. -/
theorem dense_apply {R K N : ℕ} (x : FVec Ideal ⟨2, ![R, K]⟩ .f32) (w : FVec Ideal ⟨2, ![K, N]⟩ .f32)
    (b : FVec Ideal ⟨1, ![N]⟩ .f32) (hx : FTy.bf16.bits < FTy.f32.bits) (hw : FTy.bf16.bits < FTy.f32.bits)
    (h1 : (⟨1, ![N]⟩ : Shape).ShapeCasts ⟨2, ![1, N]⟩) (h2 : (⟨2, ![1, N]⟩ : Shape).Broadcasts ⟨2, ![R, N]⟩)
    (p : Fin R) (q : Fin N) :
    addf (matmul (DotDims.plain R K N) none (truncf .bf16 x hx) (truncf .bf16 w hw)
        (constant (F := Ideal) ⟨2, ![R, N]⟩ .f32 0x00000000#32))
      (broadcastTo ⟨2, ![R, N]⟩ (shapeCast ⟨2, ![1, N]⟩ b h1) h2) (ix2 p q)
      = Mlp.dense (fun k => x (ix2 p k)) w b q := by
  unfold Mlp.dense
  refine (addf_apply _ _ _).trans ?_
  refine congrArg₂ (· + ·) ?_ (bias_apply b h1 h2 p q)
  exact MatmulPlain.matmul_zero_apply none _ _ (ix2 p q)

/-- A hidden layer of a tile, as the body computes it: the dense layer followed by the maximum with a zero splat. -/
theorem hidden_apply {R K N : ℕ} (x : FVec Ideal ⟨2, ![R, K]⟩ .f32) (w : FVec Ideal ⟨2, ![K, N]⟩ .f32)
    (b : FVec Ideal ⟨1, ![N]⟩ .f32) (hx : FTy.bf16.bits < FTy.f32.bits) (hw : FTy.bf16.bits < FTy.f32.bits)
    (h1 : (⟨1, ![N]⟩ : Shape).ShapeCasts ⟨2, ![1, N]⟩) (h2 : (⟨2, ![1, N]⟩ : Shape).Broadcasts ⟨2, ![R, N]⟩)
    (p : Fin R) (q : Fin N) :
    maximumf (addf (matmul (DotDims.plain R K N) none (truncf .bf16 x hx) (truncf .bf16 w hw)
          (constant (F := Ideal) ⟨2, ![R, N]⟩ .f32 0x00000000#32))
        (broadcastTo ⟨2, ![R, N]⟩ (shapeCast ⟨2, ![1, N]⟩ b h1) h2))
      (broadcast ⟨2, ![R, N]⟩ (Scalar.ofBits (F := Ideal) .f32 0x00000000#32)) (ix2 p q)
      = Mlp.relu (Mlp.dense (fun k => x (ix2 p k)) w b q) :=
  congrArg₂ max (dense_apply x w b hx hw h1 h2 p q) rfl

/-- The first body stores the offsets of its tile. -/
theorem offsets_pay (x0 : Vec Ideal S2000x128 .f32) (x1 : Vec Ideal S128x128 .f32) (x2 : Vec Ideal S128 .f32)
    (x3 : Vec Ideal S128x3 .f32) (x4 : Vec Ideal S3 .f32) :
    k0_pay1 x0 x1 x2 x3 x4 = Mlp.offsets (R := 2000) x0 x1 x2 x3 x4 := by
  funext j
  obtain ⟨p, q, rfl⟩ : ∃ (p : Fin 2000) (q : Fin 3), j = ix2 p q := ⟨j 0, j 1, eq_ix2 j⟩
  unfold k0_pay1 Mlp.offsets
  have key : ∀ v : FVec Ideal S2000x3 .f32, tanh v (ix2 p q) = Ideal.tanh (v (ix2 p q)) := fun _ => rfl
  refine (key _).trans (congrArg Ideal.tanh ?_)
  refine (dense_apply _ x3 x4 _ _ _ _ p q).trans ?_
  exact Mlp.dense_congr (fun k => hidden_apply x0 x1 x2 _ _ _ _ p k) (fun _ => rfl) (fun _ => rfl) q

/-- The second body stores the messages of its tile. -/
theorem messages_pay (x0 : Vec Ideal S6000x131 .f32) (x1 : Vec Ideal S131x128 .f32) (x2 : Vec Ideal S128 .f32) :
    k1_pay1 x0 x1 x2 = Mlp.messages (R := 6000) x0 x1 x2 := by
  funext j
  obtain ⟨p, q, rfl⟩ : ∃ (p : Fin 6000) (q : Fin 128), j = ix2 p q := ⟨j 0, j 1, eq_ix2 j⟩
  unfold k1_pay1 Mlp.messages
  rw [shapeCast_self]
  exact hidden_apply x0 x1 x2 _ _ _ _ p q

/-- The third body stores the update of its tiles: the node's features plus the two layers of the aggregated messages. -/
theorem update_pay (a : Vec Ideal S2000x128 .f32) (w1 : Vec Ideal S128x128 .f32) (b1 : Vec Ideal S128 .f32)
    (w2 : Vec Ideal S128x128 .f32) (b2 : Vec Ideal S128 .f32) (x : Vec Ideal S2000x128 .f32) :
    k2_pay1 a w1 b1 w2 b2 x = Mlp.update (R := 2000) a x w1 b1 w2 b2 := by
  funext j
  obtain ⟨p, q, rfl⟩ : ∃ (p : Fin 2000) (q : Fin 128), j = ix2 p q := ⟨j 0, j 1, eq_ix2 j⟩
  unfold k2_pay1 Mlp.update
  rw [shapeCast_self]
  refine (addf_apply _ _ _).trans (congrArg (x (ix2 p q) + ·) ?_)
  refine (dense_apply _ w2 b2 _ _ _ _ p q).trans ?_
  exact Mlp.dense_congr (fun k => hidden_apply a w1 b1 _ _ _ _ p k) (fun _ => rfl) (fun _ => rfl) q

end Cert.KernelIdeal.Payload

end
-- ==== Proof.Blocks0.lean ====
/-
  The offsets kernel's result array.

  The kernel runs over 25 tiles of 2000 rows. At tile `t` it loads rows 2000·t … 2000·t + 1999 of the node features
  and the whole of the four weight arrays, and writes back rows 2000·t … 2000·t + 1999 of its result. Row by row the
  stored tile is the offsets of the loaded tile, and the offsets of a row depend only on that row, so what tile `t`
  writes back is tile `t` of the offsets of the whole feature array; the 25 tiles cover all 50000 rows, so the array
  ends holding the offsets of the whole feature array. Everything is stated for arbitrary contents `V` of the
  buffers when the kernel is entered.
-/
import proofs.«170734_j31774168056050_1_alg».proof.Proof.Gen.KernelIdeal.Frame
import proofs.«170734_j31774168056050_1_alg».proof.Proof.Payload

noncomputable section

namespace Cert.KernelIdeal.Blocks0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The tile indices, decided over the grid: the feature window and the result window are at row tile `t`, column
    tile 0; the weight windows stay at tile 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What tile `t` writes back is tile `t` of the offsets of the arrays as the kernel finds them. -/
theorem flushed_eq (c : Dev nD) (t : Fin cfg0.N) :
    (dat0 V c).flushed 5 t = ((cfg0.win 5).blk t).view.read (Elt Ideal)
      (Mlp.offsets (R := 50000) (V c main_arg0) (V c main_arg3) (V c main_arg4) (V c main_arg5) (V c main_arg6)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2,
    View.ld_unit_zero (S := S128) hz1, View.ld_unit_zero (S := S128x3) hz2, View.ld_unit_zero (S := S3) hz1]
  rw [Payload.offsets_pay]
  obtain ⟨e00, e01, e10, e11, e20, e30, e31, e40, e50, e51⟩ := idx_facts t
  funext j
  show Mlp.offsets (R := 2000) (iblk0 V c 0 t) (iblk0 V c 1 t) (iblk0 V c 2 t) (iblk0 V c 3 t) (iblk0 V c 4 t) j
    = Mlp.offsets (R := 50000) (V c main_arg0) (V c main_arg3) (V c main_arg4) (V c main_arg5) (V c main_arg6)
        (((cfg0.win 5).blk t).view.emb j)
  refine Mlp.offsets_congr (x := iblk0 V c 0 t) (x' := V c main_arg0) (w1 := iblk0 V c 1 t) (w1' := V c main_arg3)
    (b1 := iblk0 V c 2 t) (b1' := V c main_arg4) (w2 := iblk0 V c 3 t) (w2' := V c main_arg5)
    (b2 := iblk0 V c 4 t) (b2' := V c main_arg6) j (((cfg0.win 5).blk t).view.emb j) ?_ ?_ ?_ ?_ ?_ ?_
  · intro l
    show V c main_arg0 (((cfg0.win 0).blk t).view.emb (ix2 (j 0) l)) = V c main_arg0 (ix2 ((((cfg0.win 5).blk t).view.emb j) 0) l)
    refine congrArg (V c main_arg0) ?_
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * l.val = l.val; omega
  · show (j 1).val = win0_5.index t (1 : Fin 2) * 3 + 1 * (j 1).val; omega
  · intro y
    show V c main_arg3 (((cfg0.win 1).blk t).view.emb y) = V c main_arg3 y
    refine congrArg (V c main_arg3) ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · intro y
    show V c main_arg4 (((cfg0.win 2).blk t).view.emb y) = V c main_arg4 y
    refine congrArg (V c main_arg4) ?_
    funext a; apply Fin.ext
    match a with
    | ⟨0, _⟩ => show win0_2.index t (0 : Fin 1) * 128 + 1 * (y 0).val = (y 0).val; omega
  · intro y
    show V c main_arg5 (((cfg0.win 3).blk t).view.emb y) = V c main_arg5 y
    refine congrArg (V c main_arg5) ?_
    funext a; apply Fin.ext
    match a with
    | ⟨0, _⟩ => show win0_3.index t (0 : Fin 2) * 128 + 1 * (y 0).val = (y 0).val; omega
    | ⟨1, _⟩ => show win0_3.index t (1 : Fin 2) * 3 + 1 * (y 1).val = (y 1).val; omega
  · intro y
    show V c main_arg6 (((cfg0.win 4).blk t).view.emb y) = V c main_arg6 y
    refine congrArg (V c main_arg6) ?_
    funext a; apply Fin.ext
    match a with
    | ⟨0, _⟩ => show win0_4.index t (0 : Fin 1) * 3 + 1 * (y 0).val = (y 0).val; omega

/-- An index of the result array is in tile `t` iff each coordinate is in the tile's range on its axis. -/
theorem mem_blk (t : Fin cfg0.N) (i : S50000x3.Idx) :
    i ∈ ((cfg0.win 5).blk t).view.set ↔ ∀ a : Fin 2, win0_5.index t a * S2000x3.size a ≤ (i a).val ∧ (i a).val < win0_5.index t a * S2000x3.size a + S2000x3.size a := by
  show i ∈ ((View.whole main_v4).slice (win0_5.rect t)).set ↔ _
  rw [View.set_slice_whole, Rect.mem_set_unit]
  exact Iff.rfl

/-- Every row of the result array is in the tile numbered by its quotient by 2000. -/
theorem cover (i : S50000x3.Idx) : ∃ t : Fin cfg0.N, (cfg0.win 5).flush t = true ∧ i ∈ ((cfg0.win 5).blk t).view.set := by
  have hi0 : (i 0).val < 50000 := (i 0).isLt
  have hi1 : (i 1).val < 3 := (i 1).isLt
  obtain ⟨t, ht⟩ : ∃ t : Fin cfg0.N, t.val = (i 0).val / 2000 :=
    ⟨⟨(i 0).val / 2000, by show _ < grid0.N; rw [N_0]; omega⟩, rfl⟩
  obtain ⟨e00, e01, e10, e11, e20, e30, e31, e40, e50, e51⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 3 ≤ (i 1).val ∧ (i 1).val < win0_5.index t (1 : Fin 2) * 3 + 3; omega

/-- The result array after the kernel: the offsets of the arrays as the kernel finds them. -/
theorem final (c : Dev nD) : (dat0 V c).arrAt 5 cfg0.N
    = Mlp.offsets (R := 50000) (V c main_arg0) (V c main_arg3) (V c main_arg4) (V c main_arg5) (V c main_arg6) :=
  (dat0 V c).arrAt_eq_of_cover 5 _ (fun t _ => flushed_eq V c t) (cover)

end Cert.KernelIdeal.Blocks0

end
-- ==== Proof.Blocks1.lean ====
/-
  The message kernel's result array.

  The kernel runs over 100 tiles of 6000 rows. At tile `t` it loads rows 6000·t … 6000·t + 5999 of the edge inputs
  and the whole weight matrix and bias, and writes back rows 6000·t … 6000·t + 5999 of its result. The stored tile is
  the messages of the loaded tile, and the messages of a row depend only on that row, so what tile `t` writes back is
  tile `t` of the messages of the whole edge-input array; the 100 tiles cover all 600000 rows, so the array ends
  holding the messages of the whole edge-input array. Everything is stated for arbitrary contents `V` of the buffers
  when the kernel is entered.
-/
import proofs.«170734_j31774168056050_1_alg».proof.Proof.Gen.KernelIdeal.Frame
import proofs.«170734_j31774168056050_1_alg».proof.Proof.Payload

noncomputable section

namespace Cert.KernelIdeal.Blocks1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The tile indices, decided over the grid: the input window and the result window are at row tile `t`, column
    tile 0; the weight windows stay at tile 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What tile `t` writes back is tile `t` of the messages of the arrays as the kernel finds them. -/
theorem flushed_eq (c : Dev nD) (t : Fin cfg1.N) :
    (dat1 V c).flushed 3 t = ((cfg1.win 3).blk t).view.read (Elt Ideal)
      (Mlp.messages (R := 600000) (V c main_v35) (V c main_arg7) (V c main_arg8)) := by
  show (cfg1.win 3).cut (grid1.coords t) ((dat1 V c).after 3 t) = _
  rw [after1_3]
  unfold out1_3
  rw [View.canon_unit_zero hz2]
  simp only [View.ld_unit_zero (S := S6000x131) hz2, View.ld_unit_zero (S := S131x128) hz2,
    View.ld_unit_zero (S := S128) hz1]
  rw [Payload.messages_pay]
  obtain ⟨e00, e01, e10, e11, e20, e30, e31⟩ := idx_facts t
  funext j
  show Mlp.messages (R := 6000) (iblk1 V c 0 t) (iblk1 V c 1 t) (iblk1 V c 2 t) j
    = Mlp.messages (R := 600000) (V c main_v35) (V c main_arg7) (V c main_arg8) (((cfg1.win 3).blk t).view.emb j)
  refine Mlp.messages_congr (e := iblk1 V c 0 t) (e' := V c main_v35) (w := iblk1 V c 1 t) (w' := V c main_arg7)
    (b := iblk1 V c 2 t) (b' := V c main_arg8) j (((cfg1.win 3).blk t).view.emb j) ?_ ?_ ?_ ?_
  · intro l
    show V c main_v35 (((cfg1.win 0).blk t).view.emb (ix2 (j 0) l)) = V c main_v35 (ix2 ((((cfg1.win 3).blk t).view.emb j) 0) l)
    refine congrArg (V c main_v35) ?_
    funext a; apply Fin.ext
    match a with
    | ⟨0, _⟩ => show win1_0.index t (0 : Fin 2) * 6000 + 1 * (j 0).val = win1_3.index t (0 : Fin 2) * 6000 + 1 * (j 0).val; omega
    | ⟨1, _⟩ => show win1_0.index t (1 : Fin 2) * 131 + 1 * l.val = l.val; omega
  · show (j 1).val = win1_3.index t (1 : Fin 2) * 128 + 1 * (j 1).val; omega
  · intro y
    show V c main_arg7 (((cfg1.win 1).blk t).view.emb y) = V c main_arg7 y
    refine congrArg (V c main_arg7) ?_
    funext a; apply Fin.ext
    match a with
    | ⟨0, _⟩ => show win1_1.index t (0 : Fin 2) * 131 + 1 * (y 0).val = (y 0).val; omega
    | ⟨1, _⟩ => show win1_1.index t (1 : Fin 2) * 128 + 1 * (y 1).val = (y 1).val; omega
  · intro y
    show V c main_arg8 (((cfg1.win 2).blk t).view.emb y) = V c main_arg8 y
    refine congrArg (V c main_arg8) ?_
    funext a; apply Fin.ext
    match a with
    | ⟨0, _⟩ => show win1_2.index t (0 : Fin 1) * 128 + 1 * (y 0).val = (y 0).val; omega

/-- An index of the result array is in tile `t` iff each coordinate is in the tile's range on its axis. -/
theorem mem_blk (t : Fin cfg1.N) (i : S600000x128.Idx) :
    i ∈ ((cfg1.win 3).blk t).view.set ↔ ∀ a : Fin 2, win1_3.index t a * S6000x128.size a ≤ (i a).val ∧ (i a).val < win1_3.index t a * S6000x128.size a + S6000x128.size a := by
  show i ∈ ((View.whole main_v36).slice (win1_3.rect t)).set ↔ _
  rw [View.set_slice_whole, Rect.mem_set_unit]
  exact Iff.rfl

/-- Every row of the result array is in the tile numbered by its quotient by 6000. -/
theorem cover (i : S600000x128.Idx) : ∃ t : Fin cfg1.N, (cfg1.win 3).flush t = true ∧ i ∈ ((cfg1.win 3).blk t).view.set := by
  have hi0 : (i 0).val < 600000 := (i 0).isLt
  have hi1 : (i 1).val < 128 := (i 1).isLt
  obtain ⟨t, ht⟩ : ∃ t : Fin cfg1.N, t.val = (i 0).val / 6000 :=
    ⟨⟨(i 0).val / 6000, by show _ < grid1.N; rw [N_1]; omega⟩, rfl⟩
  obtain ⟨e00, e01, e10, e11, e20, e30, e31⟩ := idx_facts t
  refine ⟨t, flush1_3 t, ?_⟩
  rw [mem_blk]
  intro a
  match a with
  | ⟨0, _⟩ => show win1_3.index t (0 : Fin 2) * 6000 ≤ (i 0).val ∧ (i 0).val < win1_3.index t (0 : Fin 2) * 6000 + 6000; omega
  | ⟨1, _⟩ => show win1_3.index t (1 : Fin 2) * 128 ≤ (i 1).val ∧ (i 1).val < win1_3.index t (1 : Fin 2) * 128 + 128; omega

/-- The result array after the kernel: the messages of the arrays as the kernel finds them. -/
theorem final (c : Dev nD) : (dat1 V c).arrAt 3 cfg1.N
    = Mlp.messages (R := 600000) (V c main_v35) (V c main_arg7) (V c main_arg8) :=
  (dat1 V c).arrAt_eq_of_cover 3 _ (fun t _ => flushed_eq V c t) (cover)

end Cert.KernelIdeal.Blocks1

end
-- ==== Proof.Blocks2.lean ====
/-
  The update kernel's result array.

  The kernel runs over 25 tiles of 2000 rows. At tile `t` it loads rows 2000·t … 2000·t + 1999 of the aggregated
  messages and of the node features and the whole of the four weight arrays, and writes back rows 2000·t …
  2000·t + 1999 of its result. The stored tile is the update of the loaded tiles, and the update of a row depends only
  on that row of the two inputs, so what tile `t` writes back is tile `t` of the update of the whole arrays; the 25
  tiles cover all 50000 rows, so the array ends holding the update of the whole arrays. Everything is stated for
  arbitrary contents `V` of the buffers when the kernel is entered.
-/
import proofs.«170734_j31774168056050_1_alg».proof.Proof.Gen.KernelIdeal.Frame
import proofs.«170734_j31774168056050_1_alg».proof.Proof.Payload

noncomputable section

namespace Cert.KernelIdeal.Blocks2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The tile indices, decided over the grid: the two input windows and the result window are at row tile `t`, column
    tile 0; the weight windows stay at tile 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- What tile `t` writes back is tile `t` of the update of the arrays as the kernel finds them. -/
theorem flushed_eq (c : Dev nD) (t : Fin cfg2.N) :
    (dat2 V c).flushed 6 t = ((cfg2.win 6).blk t).view.read (Elt Ideal)
      (Mlp.update (R := 50000) (V c main_v39) (V c main_arg0) (V c main_arg9) (V c main_arg10) (V c main_arg11) (V c main_arg12)) := by
  show (cfg2.win 6).cut (grid2.coords t) ((dat2 V c).after 6 t) = _
  rw [after2_6]
  unfold out2_6
  rw [View.canon_unit_zero hz2]
  simp only [View.ld_unit_zero (S := S2000x128) hz2, View.ld_unit_zero (S := S128x128) hz2,
    View.ld_unit_zero (S := S128) hz1]
  rw [Payload.update_pay]
  obtain ⟨e00, e01, e10, e11, e20, e21, e30, e40, e41, e50, e60, e61⟩ := idx_facts t
  funext j
  show Mlp.update (R := 2000) (iblk2 V c 0 t) (iblk2 V c 1 t) (iblk2 V c 2 t) (iblk2 V c 3 t) (iblk2 V c 4 t) (iblk2 V c 5 t) j
    = Mlp.update (R := 50000) (V c main_v39) (V c main_arg0) (V c main_arg9) (V c main_arg10) (V c main_arg11) (V c main_arg12)
        (((cfg2.win 6).blk t).view.emb j)
  refine Mlp.update_congr (a := iblk2 V c 0 t) (a' := V c main_v39) (x := iblk2 V c 1 t) (x' := V c main_arg0)
    (w1 := iblk2 V c 2 t) (w1' := V c main_arg9) (b1 := iblk2 V c 3 t) (b1' := V c main_arg10)
    (w2 := iblk2 V c 4 t) (w2' := V c main_arg11) (b2 := iblk2 V c 5 t) (b2' := V c main_arg12)
    j (((cfg2.win 6).blk t).view.emb j) ?_ ?_ ?_ ?_ ?_ ?_ ?_
  · intro l
    show V c main_v39 (((cfg2.win 0).blk t).view.emb (ix2 (j 0) l)) = V c main_v39 (ix2 ((((cfg2.win 6).blk t).view.emb j) 0) l)
    refine congrArg (V c main_v39) ?_
    funext a; apply Fin.ext
    match a with
    | ⟨0, _⟩ => show win2_0.index t (0 : Fin 2) * 2000 + 1 * (j 0).val = win2_6.index t (0 : Fin 2) * 2000 + 1 * (j 0).val; omega
    | ⟨1, _⟩ => show win2_0.index t (1 : Fin 2) * 128 + 1 * l.val = l.val; omega
  · show V c main_arg0 (((cfg2.win 1).blk t).view.emb j) = V c main_arg0 (((cfg2.win 6).blk t).view.emb j)
    refine congrArg (V c main_arg0) ?_
    funext a; apply Fin.ext
    match a with
    | ⟨0, _⟩ => show win2_1.index t (0 : Fin 2) * 2000 + 1 * (j 0).val = win2_6.index t (0 : Fin 2) * 2000 + 1 * (j 0).val; omega
    | ⟨1, _⟩ => show win2_1.index t (1 : Fin 2) * 128 + 1 * (j 1).val = win2_6.index t (1 : Fin 2) * 128 + 1 * (j 1).val; omega
  · show (j 1).val = win2_6.index t (1 : Fin 2) * 128 + 1 * (j 1).val; omega
  · intro y
    show V c main_arg9 (((cfg2.win 2).blk t).view.emb y) = V c main_arg9 y
    refine congrArg (V c main_arg9) ?_
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  · intro y
    show V c main_arg10 (((cfg2.win 3).blk t).view.emb y) = V c main_arg10 y
    refine congrArg (V c main_arg10) ?_
    funext a; apply Fin.ext
    match a with
    | ⟨0, _⟩ => show win2_3.index t (0 : Fin 1) * 128 + 1 * (y 0).val = (y 0).val; omega
  · intro y
    show V c main_arg11 (((cfg2.win 4).blk t).view.emb y) = V c main_arg11 y
    refine congrArg (V c main_arg11) ?_
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  · intro y
    show V c main_arg12 (((cfg2.win 5).blk t).view.emb y) = V c main_arg12 y
    refine congrArg (V c main_arg12) ?_
    funext a; apply Fin.ext
    match a with
    | ⟨0, _⟩ => show win2_5.index t (0 : Fin 1) * 128 + 1 * (y 0).val = (y 0).val; omega

/-- An index of the result array is in tile `t` iff each coordinate is in the tile's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v40).slice (win2_6.rect t)).set ↔ _
  rw [View.set_slice_whole, Rect.mem_set_unit]
  exact Iff.rfl

/-- Every row of the result array is in the tile numbered by its quotient by 2000. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show _ < grid2.N; rw [N_2]; omega⟩, rfl⟩
  obtain ⟨e00, e01, e10, e11, e20, e21, e30, e40, e41, e50, e60, e61⟩ := idx_facts t
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The result array after the kernel: the update of the arrays as the kernel finds them. -/
theorem final (c : Dev nD) : (dat2 V c).arrAt 6 cfg2.N
    = Mlp.update (R := 50000) (V c main_v39) (V c main_arg0) (V c main_arg9) (V c main_arg10) (V c main_arg11) (V c main_arg12) :=
  (dat2 V c).arrAt_eq_of_cover 6 _ (fun t _ => flushed_eq V c t) (cover)

end Cert.KernelIdeal.Blocks2

end
-- ==== Proof.Glue.lean ====
/-
  The host operations between the kernels, as functions of what they read.

  Between the kernels the program reshapes the edge list into its row of sources and its row of targets, gathers the
  positions of each edge's two ends, the target's offset and the source's features, joins them into the edge inputs,
  and, after the message kernel, adds each message into its target's row of an array of zeros. These are the same
  operations in the kernel program and in the reference, so they are named here once and never opened: the proof only
  needs that each host stretch leaves exactly these functions of the buffers it read, and leaves every other buffer
  as it was.
-/
import proofs.«170734_j31774168056050_1_alg».proof.Proof.Gen.KernelIdeal.Launch
import Idealize.ShloMosaic.Lib.StableHlo.Run

noncomputable section

namespace Cert.KernelIdeal.Glue

open Cert.KernelIdeal Cert.KernelIdeal.Gen Idealize.ShloMosaic Idealize.ShloMosaic.TcCoe Idealize.ShloMosaic.StableHlo
open Idealize.SL.Sem

variable {F : FTy → Type} [FloatOps F]

/-- The sources of the edges: the first row of the edge list. -/
def srcOf (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- The targets of the edges: the second row of the edge list. -/
def dstOf (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- Node numbers made ready for a row gather: a negative number counts from the end (50000 is added to it), and the
    vector becomes a column. -/
def wrapIdx (v : (⟨S600000, .i32⟩ : BufTy).Contents (Elt F)) : (⟨S600000x1, .i32⟩ : BufTy).Contents (Elt F) :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

/-- The edge inputs: per edge, the source's position minus the target's position plus the target's offset, joined
    with the source's features. -/
def edgeIn (pos : (⟨S50000x3, .f32⟩ : BufTy).Contents (Elt F)) (src dst : (⟨S600000, .i32⟩ : BufTy).Contents (Elt F))
    (delta : (⟨S50000x3, .f32⟩ : BufTy).Contents (Elt F)) (x : (⟨S50000x128, .f32⟩ : BufTy).Contents (Elt F)) :
    (⟨S600000x131, .f32⟩ : BufTy).Contents (Elt F) :=
  concatenate S600000x131 1
    [⟨S600000x3, addf (subf (Host.gather gather_S50000x3_S600000x1_S600000x3_1_0_n_n_0_1_13 pos (wrapIdx src))
        (Host.gather gather_S50000x3_S600000x1_S600000x3_1_0_n_n_0_1_13 pos (wrapIdx dst)))
        (Host.gather gather_S50000x3_S600000x1_S600000x3_1_0_n_n_0_1_13 delta (wrapIdx dst))⟩,
     ⟨S600000x128, Host.gather gather_S50000x128_S600000x1_S600000x128_1_0_n_n_0_1_1128 x (wrapIdx src)⟩]
    concatenates_S600000x3_S600000x128_S600000x131_d1

/-- The aggregated messages: each edge's message added into its target's row of an array of zeros. -/
def aggregate (dst : (⟨S600000, .i32⟩ : BufTy).Contents (Elt F)) (msg : (⟨S600000x128, .f32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) msg

variable (W : Valuation τ sig (Elt F))

/-! ## The first stretch: the edge list split into sources and targets -/

theorem stretch0_src : after (hostOps0 (F := F)) W (Proc.devRef .tc main_v1) = srcOf (W (Proc.devRef .tc main_arg2)) := by
  after_results; rfl

theorem stretch0_dst : after (hostOps0 (F := F)) W (Proc.devRef .tc main_v3) = dstOf (W (Proc.devRef .tc main_arg2)) := by
  after_results; rfl

/-- The first stretch writes only its own four results. -/
theorem stretch0_keep (b : Ref sig .tc) (h : ∀ y ∈ ([main_v0, main_v1, main_v2, main_v3] : List (Ref sig .tc)), b ≠ y) :
    after (hostOps0 (F := F)) W (Proc.devRef .tc b) = W (Proc.devRef .tc b) :=
  after_of_forall_not_mem (b := Proc.devRef .tc b) _ _ (List.forall_iff_forall_mem.mp (by
    simp only [hostOps0, List.Forall, unary_writes, reshape_writes, Finset.mem_singleton]
    repeat' apply And.intro
    all_goals exact devRef_ne_of_ne (h _ (by decide))))

/-! ## The middle stretch: the edge inputs gathered and joined -/

/-- What the middle stretch writes: its 39 results. -/
abbrev stretch1_writes : List (Ref sig .tc) :=
  [main_c, main_v5, main_v6, main_c_0, main_v7, main_v8, main_v9, main_v10, main_v11, main_c_1, main_v12, main_v13,
   main_c_2, main_v14, main_v15, main_v16, main_v17, main_v18, main_c_3, main_v19, main_v20, main_c_4, main_v21,
   main_v22, main_v23, main_v24, main_v25, main_c_5, main_v26, main_v27, main_c_6, main_v28, main_v29, main_v30,
   main_v31, main_v32, main_v33, main_v34, main_v35]

theorem stretch1_edge : after (hostOps1 (F := F)) W (Proc.devRef .tc main_v35)
    = edgeIn (W (Proc.devRef .tc main_arg1)) (W (Proc.devRef .tc main_v1)) (W (Proc.devRef .tc main_v3))
        (W (Proc.devRef .tc main_v4)) (W (Proc.devRef .tc main_arg0)) := by
  after_results_simp
  rfl

/-- The middle stretch writes only its own results. -/
theorem stretch1_keep (b : Ref sig .tc) (h : ∀ y ∈ stretch1_writes, b ≠ y) :
    after (hostOps1 (F := F)) W (Proc.devRef .tc b) = W (Proc.devRef .tc b) :=
  after_of_forall_not_mem (b := Proc.devRef .tc b) _ _ (List.forall_iff_forall_mem.mp (by
    simp only [hostOps1, List.Forall, nullary_writes, unary_writes, binary_writes, ternary_writes, Finset.mem_singleton]
    repeat' apply And.intro
    all_goals exact devRef_ne_of_ne (h _ (by decide))))

/-! ## The last stretch: the messages added into their targets' rows -/

theorem stretch2_aggr : after (hostOps2 (F := F)) W (Proc.devRef .tc main_v39)
    = aggregate (W (Proc.devRef .tc main_v3)) (W (Proc.devRef .tc main_v36)) := by
  after_results; rfl

/-- The last stretch writes only its own four results. -/
theorem stretch2_keep (b : Ref sig .tc) (h : ∀ y ∈ ([main_cst, main_v37, main_v38, main_v39] : List (Ref sig .tc)), b ≠ y) :
    after (hostOps2 (F := F)) W (Proc.devRef .tc b) = W (Proc.devRef .tc b) :=
  after_of_forall_not_mem (b := Proc.devRef .tc b) _ _ (List.forall_iff_forall_mem.mp (by
    simp only [hostOps2, List.Forall, nullary_writes, unary_writes, ternary_writes, Finset.mem_singleton]
    repeat' apply And.intro
    all_goals exact devRef_ne_of_ne (h _ (by decide))))

end Cert.KernelIdeal.Glue

end
-- ==== Proof.Walk.lean ====
/-
  The kernel program's result, read through its segments.

  The contents of the buffers at each boundary of the program are a fold from the launch memory: a host stretch
  leaves its results as functions of what it read and every other buffer as it was; a kernel leaves its result array
  at its perceptron of its input arrays (the three tile-by-tile arguments) and every other buffer as it was. Walking
  the fold forward — the edge list split, the offsets kernel, the edge inputs gathered and joined, the message kernel,
  the messages added into their targets' rows, the update kernel — the result array ends at

    update (aggregate dst (messages (edgeIn pos src dst (offsets x h_w1 h_b1 h_w2 h_b2) x) f_w f_b)) x g_w1 g_b1 g_w2 g_b2

  of the thirteen argument arrays at launch, where src and dst are the two rows of the edge list.
-/
import proofs.«170734_j31774168056050_1_alg».proof.Proof.Gen.KernelIdeal.Frame
import proofs.«170734_j31774168056050_1_alg».proof.Proof.Blocks0
import proofs.«170734_j31774168056050_1_alg».proof.Proof.Blocks1
import proofs.«170734_j31774168056050_1_alg».proof.Proof.Blocks2
import proofs.«170734_j31774168056050_1_alg».proof.Proof.Glue

noncomputable section

namespace Cert.KernelIdeal.Walk

open Cert.KernelIdeal Cert.KernelIdeal.Gen Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg) (c : Dev nD)

/-! ## After the first stretch: the arguments as launched, the edge list split -/
theorem s1_arg0 : W1 m ρ c (Proc.devRef .tc main_arg0) = m ((c : Thread nD τ).loc main_arg0) :=
  Glue.stretch0_keep (W0 m ρ c) main_arg0 (by decide)
theorem s1_arg1 : W1 m ρ c (Proc.devRef .tc main_arg1) = m ((c : Thread nD τ).loc main_arg1) :=
  Glue.stretch0_keep (W0 m ρ c) main_arg1 (by decide)
theorem s1_arg3 : W1 m ρ c (Proc.devRef .tc main_arg3) = m ((c : Thread nD τ).loc main_arg3) :=
  Glue.stretch0_keep (W0 m ρ c) main_arg3 (by decide)
theorem s1_arg4 : W1 m ρ c (Proc.devRef .tc main_arg4) = m ((c : Thread nD τ).loc main_arg4) :=
  Glue.stretch0_keep (W0 m ρ c) main_arg4 (by decide)
theorem s1_arg5 : W1 m ρ c (Proc.devRef .tc main_arg5) = m ((c : Thread nD τ).loc main_arg5) :=
  Glue.stretch0_keep (W0 m ρ c) main_arg5 (by decide)
theorem s1_arg6 : W1 m ρ c (Proc.devRef .tc main_arg6) = m ((c : Thread nD τ).loc main_arg6) :=
  Glue.stretch0_keep (W0 m ρ c) main_arg6 (by decide)
theorem s1_arg7 : W1 m ρ c (Proc.devRef .tc main_arg7) = m ((c : Thread nD τ).loc main_arg7) :=
  Glue.stretch0_keep (W0 m ρ c) main_arg7 (by decide)
theorem s1_arg8 : W1 m ρ c (Proc.devRef .tc main_arg8) = m ((c : Thread nD τ).loc main_arg8) :=
  Glue.stretch0_keep (W0 m ρ c) main_arg8 (by decide)
theorem s1_arg9 : W1 m ρ c (Proc.devRef .tc main_arg9) = m ((c : Thread nD τ).loc main_arg9) :=
  Glue.stretch0_keep (W0 m ρ c) main_arg9 (by decide)
theorem s1_arg10 : W1 m ρ c (Proc.devRef .tc main_arg10) = m ((c : Thread nD τ).loc main_arg10) :=
  Glue.stretch0_keep (W0 m ρ c) main_arg10 (by decide)
theorem s1_arg11 : W1 m ρ c (Proc.devRef .tc main_arg11) = m ((c : Thread nD τ).loc main_arg11) :=
  Glue.stretch0_keep (W0 m ρ c) main_arg11 (by decide)
theorem s1_arg12 : W1 m ρ c (Proc.devRef .tc main_arg12) = m ((c : Thread nD τ).loc main_arg12) :=
  Glue.stretch0_keep (W0 m ρ c) main_arg12 (by decide)
theorem s1_src : W1 m ρ c (Proc.devRef .tc main_v1) = Glue.srcOf (m ((c : Thread nD τ).loc main_arg2)) := Glue.stretch0_src (W0 m ρ c)
theorem s1_dst : W1 m ρ c (Proc.devRef .tc main_v3) = Glue.dstOf (m ((c : Thread nD τ).loc main_arg2)) := Glue.stretch0_dst (W0 m ρ c)

/-! ## After the offsets kernel: its result array at the offsets of the node features -/
theorem s2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (s1_arg0 m ρ c)
theorem s2_arg1 : W2 m ρ c (Proc.devRef .tc main_arg1) = m ((c : Thread nD τ).loc main_arg1) :=
  (W2_of_ne m ρ c main_arg1 (by decide)).trans (s1_arg1 m ρ c)
theorem s2_arg7 : W2 m ρ c (Proc.devRef .tc main_arg7) = m ((c : Thread nD τ).loc main_arg7) :=
  (W2_of_ne m ρ c main_arg7 (by decide)).trans (s1_arg7 m ρ c)
theorem s2_arg8 : W2 m ρ c (Proc.devRef .tc main_arg8) = m ((c : Thread nD τ).loc main_arg8) :=
  (W2_of_ne m ρ c main_arg8 (by decide)).trans (s1_arg8 m ρ c)
theorem s2_arg9 : W2 m ρ c (Proc.devRef .tc main_arg9) = m ((c : Thread nD τ).loc main_arg9) :=
  (W2_of_ne m ρ c main_arg9 (by decide)).trans (s1_arg9 m ρ c)
theorem s2_arg10 : W2 m ρ c (Proc.devRef .tc main_arg10) = m ((c : Thread nD τ).loc main_arg10) :=
  (W2_of_ne m ρ c main_arg10 (by decide)).trans (s1_arg10 m ρ c)
theorem s2_arg11 : W2 m ρ c (Proc.devRef .tc main_arg11) = m ((c : Thread nD τ).loc main_arg11) :=
  (W2_of_ne m ρ c main_arg11 (by decide)).trans (s1_arg11 m ρ c)
theorem s2_arg12 : W2 m ρ c (Proc.devRef .tc main_arg12) = m ((c : Thread nD τ).loc main_arg12) :=
  (W2_of_ne m ρ c main_arg12 (by decide)).trans (s1_arg12 m ρ c)
theorem s2_src : W2 m ρ c (Proc.devRef .tc main_v1) = Glue.srcOf (m ((c : Thread nD τ).loc main_arg2)) := (W2_of_ne m ρ c main_v1 (by decide)).trans (s1_src m ρ c)
theorem s2_dst : W2 m ρ c (Proc.devRef .tc main_v3) = Glue.dstOf (m ((c : Thread nD τ).loc main_arg2)) := (W2_of_ne m ρ c main_v3 (by decide)).trans (s1_dst m ρ c)
theorem s2_offsets : W2 m ρ c (Proc.devRef .tc main_v4) = Mlp.offsets (R := 50000) (m ((c : Thread nD τ).loc main_arg0)) (m ((c : Thread nD τ).loc main_arg3)) (m ((c : Thread nD τ).loc main_arg4)) (m ((c : Thread nD τ).loc main_arg5)) (m ((c : Thread nD τ).loc main_arg6)) := by
  refine ((W2_arr m ρ c 5).trans (Blocks0.final (V1 m ρ) c)).trans ?_
  show Mlp.offsets (R := 50000) (W1 m ρ c (Proc.devRef .tc main_arg0)) (W1 m ρ c (Proc.devRef .tc main_arg3)) (W1 m ρ c (Proc.devRef .tc main_arg4))
    (W1 m ρ c (Proc.devRef .tc main_arg5)) (W1 m ρ c (Proc.devRef .tc main_arg6)) = _
  rw [s1_arg0, s1_arg3, s1_arg4, s1_arg5, s1_arg6]

/-! ## After the middle stretch: the edge inputs -/
theorem s3_arg0 : W3 m ρ c (Proc.devRef .tc main_arg0) = m ((c : Thread nD τ).loc main_arg0) :=
  (Glue.stretch1_keep (W2 m ρ c) main_arg0 (by decide)).trans (s2_arg0 m ρ c)
theorem s3_arg7 : W3 m ρ c (Proc.devRef .tc main_arg7) = m ((c : Thread nD τ).loc main_arg7) :=
  (Glue.stretch1_keep (W2 m ρ c) main_arg7 (by decide)).trans (s2_arg7 m ρ c)
theorem s3_arg8 : W3 m ρ c (Proc.devRef .tc main_arg8) = m ((c : Thread nD τ).loc main_arg8) :=
  (Glue.stretch1_keep (W2 m ρ c) main_arg8 (by decide)).trans (s2_arg8 m ρ c)
theorem s3_arg9 : W3 m ρ c (Proc.devRef .tc main_arg9) = m ((c : Thread nD τ).loc main_arg9) :=
  (Glue.stretch1_keep (W2 m ρ c) main_arg9 (by decide)).trans (s2_arg9 m ρ c)
theorem s3_arg10 : W3 m ρ c (Proc.devRef .tc main_arg10) = m ((c : Thread nD τ).loc main_arg10) :=
  (Glue.stretch1_keep (W2 m ρ c) main_arg10 (by decide)).trans (s2_arg10 m ρ c)
theorem s3_arg11 : W3 m ρ c (Proc.devRef .tc main_arg11) = m ((c : Thread nD τ).loc main_arg11) :=
  (Glue.stretch1_keep (W2 m ρ c) main_arg11 (by decide)).trans (s2_arg11 m ρ c)
theorem s3_arg12 : W3 m ρ c (Proc.devRef .tc main_arg12) = m ((c : Thread nD τ).loc main_arg12) :=
  (Glue.stretch1_keep (W2 m ρ c) main_arg12 (by decide)).trans (s2_arg12 m ρ c)
theorem s3_dst : W3 m ρ c (Proc.devRef .tc main_v3) = Glue.dstOf (m ((c : Thread nD τ).loc main_arg2)) :=
  (Glue.stretch1_keep (W2 m ρ c) main_v3 (by decide)).trans (s2_dst m ρ c)
theorem s3_edge : W3 m ρ c (Proc.devRef .tc main_v35) = Glue.edgeIn (m ((c : Thread nD τ).loc main_arg1)) (Glue.srcOf (m ((c : Thread nD τ).loc main_arg2))) (Glue.dstOf (m ((c : Thread nD τ).loc main_arg2))) (Mlp.offsets (R := 50000) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg0)) := by
  refine (Glue.stretch1_edge (W2 m ρ c)).trans ?_
  rw [s2_arg1, s2_src, s2_dst, s2_offsets, s2_arg0]

/-! ## After the message kernel: its result array at the messages of the edge inputs -/
theorem s4_arg0 : W4 m ρ c (Proc.devRef .tc main_arg0) = m ((c : Thread nD τ).loc main_arg0) :=
  (W4_of_ne m ρ c main_arg0 (by decide)).trans (s3_arg0 m ρ c)
theorem s4_arg9 : W4 m ρ c (Proc.devRef .tc main_arg9) = m ((c : Thread nD τ).loc main_arg9) :=
  (W4_of_ne m ρ c main_arg9 (by decide)).trans (s3_arg9 m ρ c)
theorem s4_arg10 : W4 m ρ c (Proc.devRef .tc main_arg10) = m ((c : Thread nD τ).loc main_arg10) :=
  (W4_of_ne m ρ c main_arg10 (by decide)).trans (s3_arg10 m ρ c)
theorem s4_arg11 : W4 m ρ c (Proc.devRef .tc main_arg11) = m ((c : Thread nD τ).loc main_arg11) :=
  (W4_of_ne m ρ c main_arg11 (by decide)).trans (s3_arg11 m ρ c)
theorem s4_arg12 : W4 m ρ c (Proc.devRef .tc main_arg12) = m ((c : Thread nD τ).loc main_arg12) :=
  (W4_of_ne m ρ c main_arg12 (by decide)).trans (s3_arg12 m ρ c)
theorem s4_dst : W4 m ρ c (Proc.devRef .tc main_v3) = Glue.dstOf (m ((c : Thread nD τ).loc main_arg2)) := (W4_of_ne m ρ c main_v3 (by decide)).trans (s3_dst m ρ c)
theorem s4_messages : W4 m ρ c (Proc.devRef .tc main_v36) = Mlp.messages (R := 600000) (Glue.edgeIn (m ((c : Thread nD τ).loc main_arg1)) (Glue.srcOf (m ((c : Thread nD τ).loc main_arg2))) (Glue.dstOf (m ((c : Thread nD τ).loc main_arg2))) (Mlp.offsets (R := 50000) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg0))) (m ((c : Thread nD τ).loc main_arg7)) (m ((c : Thread nD τ).loc main_arg8)) := by
  refine ((W4_arr m ρ c 3).trans (Blocks1.final (V3 m ρ) c)).trans ?_
  show Mlp.messages (R := 600000) (W3 m ρ c (Proc.devRef .tc main_v35)) (W3 m ρ c (Proc.devRef .tc main_arg7)) (W3 m ρ c (Proc.devRef .tc main_arg8)) = _
  rw [s3_edge, s3_arg7, s3_arg8]

/-! ## After the last stretch: the aggregated messages -/
theorem s5_arg0 : W5 m ρ c (Proc.devRef .tc main_arg0) = m ((c : Thread nD τ).loc main_arg0) :=
  (Glue.stretch2_keep (W4 m ρ c) main_arg0 (by decide)).trans (s4_arg0 m ρ c)
theorem s5_arg9 : W5 m ρ c (Proc.devRef .tc main_arg9) = m ((c : Thread nD τ).loc main_arg9) :=
  (Glue.stretch2_keep (W4 m ρ c) main_arg9 (by decide)).trans (s4_arg9 m ρ c)
theorem s5_arg10 : W5 m ρ c (Proc.devRef .tc main_arg10) = m ((c : Thread nD τ).loc main_arg10) :=
  (Glue.stretch2_keep (W4 m ρ c) main_arg10 (by decide)).trans (s4_arg10 m ρ c)
theorem s5_arg11 : W5 m ρ c (Proc.devRef .tc main_arg11) = m ((c : Thread nD τ).loc main_arg11) :=
  (Glue.stretch2_keep (W4 m ρ c) main_arg11 (by decide)).trans (s4_arg11 m ρ c)
theorem s5_arg12 : W5 m ρ c (Proc.devRef .tc main_arg12) = m ((c : Thread nD τ).loc main_arg12) :=
  (Glue.stretch2_keep (W4 m ρ c) main_arg12 (by decide)).trans (s4_arg12 m ρ c)
theorem s5_aggr : W5 m ρ c (Proc.devRef .tc main_v39) = Glue.aggregate (Glue.dstOf (m ((c : Thread nD τ).loc main_arg2))) (Mlp.messages (R := 600000) (Glue.edgeIn (m ((c : Thread nD τ).loc main_arg1)) (Glue.srcOf (m ((c : Thread nD τ).loc main_arg2))) (Glue.dstOf (m ((c : Thread nD τ).loc main_arg2))) (Mlp.offsets (R := 50000) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg0))) (m ((c : Thread nD τ).loc main_arg7)) (m ((c : Thread nD τ).loc main_arg8))) := by
  refine (Glue.stretch2_aggr (W4 m ρ c)).trans ?_
  rw [s4_dst, s4_messages]

/-! ## After the update kernel: the result -/

/-- The result array at the last boundary: the layer of the thirteen argument arrays at launch. -/
theorem result : W6 m ρ c (Proc.devRef .tc main_v40) = Mlp.update (R := 50000) (Glue.aggregate (Glue.dstOf (m ((c : Thread nD τ).loc main_arg2))) (Mlp.messages (R := 600000) (Glue.edgeIn (m ((c : Thread nD τ).loc main_arg1)) (Glue.srcOf (m ((c : Thread nD τ).loc main_arg2))) (Glue.dstOf (m ((c : Thread nD τ).loc main_arg2))) (Mlp.offsets (R := 50000) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg0))) (m ((c : Thread nD τ).loc main_arg7)) (m ((c : Thread nD τ).loc main_arg8)))) (m ((c : Thread nD τ).loc main_arg0)) (m ((c : Thread nD τ).loc main_arg9)) (m ((c : Thread nD τ).loc main_arg10)) (m ((c : Thread nD τ).loc main_arg11)) (m ((c : Thread nD τ).loc main_arg12)) := by
  refine ((W6_arr m ρ c 6).trans (Blocks2.final (V5 m ρ) c)).trans ?_
  show Mlp.update (R := 50000) (W5 m ρ c (Proc.devRef .tc main_v39)) (W5 m ρ c (Proc.devRef .tc main_arg0)) (W5 m ρ c (Proc.devRef .tc main_arg9))
    (W5 m ρ c (Proc.devRef .tc main_arg10)) (W5 m ρ c (Proc.devRef .tc main_arg11)) (W5 m ρ c (Proc.devRef .tc main_arg12)) = _
  rw [s5_aggr, s5_arg0, s5_arg9, s5_arg10, s5_arg11, s5_arg12]

end Cert.KernelIdeal.Walk

end
-- ==== Proof.Layer.lean ====
/-
  The whole layer as one function of the thirteen argument arrays.

  offsets of the node features; edge inputs gathered from the positions, the offsets and the features along the edge
  list; messages of the edge inputs; the messages added into their targets' rows; the update of the node features by
  the aggregated messages.
-/
import proofs.«170734_j31774168056050_1_alg».proof.Proof.Glue
import proofs.«170734_j31774168056050_1_alg».proof.Proof.Spec

noncomputable section

namespace Cert.KernelIdeal.Layer

open Cert.KernelIdeal Idealize.ShloMosaic

/-- The message-passing layer: the result array as a function of the thirteen argument arrays. -/
def layer (a0 : (⟨S50000x128, .f32⟩ : BufTy).Contents (Elt Ideal))
    (a1 : (⟨S50000x3, .f32⟩ : BufTy).Contents (Elt Ideal))
    (a2 : (⟨S2x600000, .i32⟩ : BufTy).Contents (Elt Ideal))
    (a3 : (⟨S128x128, .f32⟩ : BufTy).Contents (Elt Ideal))
    (a4 : (⟨S128, .f32⟩ : BufTy).Contents (Elt Ideal))
    (a5 : (⟨S128x3, .f32⟩ : BufTy).Contents (Elt Ideal))
    (a6 : (⟨S3, .f32⟩ : BufTy).Contents (Elt Ideal))
    (a7 : (⟨S131x128, .f32⟩ : BufTy).Contents (Elt Ideal))
    (a8 : (⟨S128, .f32⟩ : BufTy).Contents (Elt Ideal))
    (a9 : (⟨S128x128, .f32⟩ : BufTy).Contents (Elt Ideal))
    (a10 : (⟨S128, .f32⟩ : BufTy).Contents (Elt Ideal))
    (a11 : (⟨S128x128, .f32⟩ : BufTy).Contents (Elt Ideal))
    (a12 : (⟨S128, .f32⟩ : BufTy).Contents (Elt Ideal)) :
    (⟨S50000x128, .f32⟩ : BufTy).Contents (Elt Ideal) :=
  Mlp.update (R := 50000)
    (Glue.aggregate (Glue.dstOf a2)
      (Mlp.messages (R := 600000)
        (Glue.edgeIn a1 (Glue.srcOf a2) (Glue.dstOf a2) (Mlp.offsets (R := 50000) a0 a3 a4 a5 a6) a0) a7 a8))
    a0 a9 a10 a11 a12

end Cert.KernelIdeal.Layer

end
-- ==== Proof.RefValue.lean ====
/-
  The reference's three perceptrons, read index by index.

  The reference computes each perceptron as a chain of array operations: a contraction of the rows with a weight
  matrix, the bias broadcast along the rows and added, the maximum with a broadcast zero, and for the offsets the
  hyperbolic tangent. Read at one index (p, q), every such stage is the same scalar expression as the row-by-row
  definition: the contraction at (p, q) is Σ_k row_p k · w (k, q), the broadcast bias at (p, q) is b q, the broadcast
  zero is zero. The three theorems say that

    the offsets stage   is  tanh (dense (relu (dense x_p w1 b1)) w2 b2) q            for the node features x,
    the messages stage  is  relu (dense e_p w b) q                                    for the joined edge rows e,
    the update stage    is  x (p, q) + dense (relu (dense a_p w1 b1)) w2 b2 q         for the aggregated messages a,

  as equalities of whole arrays. The joined edge rows and the aggregated messages are kept as they are: the
  statements hold for whatever arrays they are.
-/
import proofs.«170734_j31774168056050_1_alg».proof.Proof.Gen.ReferenceIdeal.Read
import proofs.«170734_j31774168056050_1_alg».proof.Proof.Spec

noncomputable section

open scoped BigOperators

namespace Cert.ReferenceIdeal.RefValue

open Cert Cert.ReferenceIdeal Cert.ReferenceIdeal.Gen Idealize.ShloMosaic Idealize.ShloMosaic.ValueIdx Idealize.ShloMosaic.StableHlo

/-- A rank-2 index is the pair of two given coordinates once its two coordinates have their values. -/
theorem idx_eq_ix2 {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-1 index is the one given coordinate once its coordinate has that value. -/
theorem idx_eq_ix1 {n : Nat} (f : (⟨1, ![n]⟩ : Shape).Idx) (a : Fin n) (h0 : (f 0).val = a.val) : f = ix1 a :=
  funext fun d => Fin.ext (by match d with | ⟨0, _⟩ => exact h0)

/-- The first hidden layer of the offsets at node `p` and unit `k`: the rectified dense layer of the node's row. -/
theorem offsets_hidden (x0 : (⟨S50000x128, .f32⟩ : BufTy).Contents (Elt Ideal)) (x3 : (⟨S128x128, .f32⟩ : BufTy).Contents (Elt Ideal))
    (x4 : (⟨S128, .f32⟩ : BufTy).Contents (Elt Ideal)) (p : Fin 50000) (k : Fin 128) :
    Read.val_main_v8 (F := Ideal) x0 x3 x4 (ix2 p k) = Mlp.relu (Mlp.dense (fun l => x0 (ix2 p l)) x3 x4 k) := by
  rw [Read.val_main_v8_apply, Read.val_main_v7_apply, Read.val_main_v4_apply, Read.val_main_v6_apply,
    Read.val_main_v5_apply, Read.val_main_call0_v0_apply, Read.val_main_call0_cst_apply]
  have hl : ∀ l : Fin 128, Read.lidx_main_v4 (ix2 p k) l = ix2 p l := fun l => idx_eq_ix2 _ p l rfl rfl
  have hr : ∀ l : Fin 128, Read.ridx_main_v4 (ix2 p k) l = ix2 l k := fun l => idx_eq_ix2 _ l k rfl rfl
  have hb : Read.idx_main_v5 (Read.idx_main_v6 (ix2 p k)) = ix1 k := idx_eq_ix1 _ k rfl
  rw [hb, Finset.sum_congr rfl fun l _ => by rw [hl l, hr l]]
  rfl

/-- The offsets stage of the reference is the offsets perceptron of the node features: at node `p` and coordinate
    `q` it is `tanh (Σ_k relu (Σ_l x (p, l) · w1 (l, k) + b1 k) · w2 (k, q) + b2 q)`. -/
theorem offsets_eq (x0 : (⟨S50000x128, .f32⟩ : BufTy).Contents (Elt Ideal)) (x3 : (⟨S128x128, .f32⟩ : BufTy).Contents (Elt Ideal))
    (x4 : (⟨S128, .f32⟩ : BufTy).Contents (Elt Ideal)) (x5 : (⟨S128x3, .f32⟩ : BufTy).Contents (Elt Ideal))
    (x6 : (⟨S3, .f32⟩ : BufTy).Contents (Elt Ideal)) :
    Read.val_main_v13 (F := Ideal) x0 x3 x4 x5 x6 = Mlp.offsets (R := 50000) x0 x3 x4 x5 x6 := by
  funext i
  obtain ⟨p, q, rfl⟩ : ∃ (p : Fin 50000) (q : Fin 3), i = ix2 p q := ⟨i 0, i 1, eq_ix2 i⟩
  rw [Read.val_main_v13_apply, Read.val_main_v12_apply, Read.val_main_v9_apply, Read.val_main_v11_apply,
    Read.val_main_v10_apply]
  have hl : ∀ k : Fin 128, Read.lidx_main_v9 (ix2 p q) k = ix2 p k := fun k => idx_eq_ix2 _ p k rfl rfl
  have hr : ∀ k : Fin 128, Read.ridx_main_v9 (ix2 p q) k = ix2 k q := fun k => idx_eq_ix2 _ k q rfl rfl
  have hb : Read.idx_main_v10 (Read.idx_main_v11 (ix2 p q)) = ix1 q := idx_eq_ix1 _ q rfl
  rw [hb, Finset.sum_congr rfl fun k _ => by rw [hl k, hr k, offsets_hidden]]
  rfl

/-- The messages stage of the reference is the messages perceptron of the joined edge rows: at edge `p` and unit
    `q` it is `relu (Σ_k e (p, k) · w (k, q) + b q)`, for `e` the joined rows, whatever they are. -/
theorem messages_eq (x0 : (⟨S50000x128, .f32⟩ : BufTy).Contents (Elt Ideal)) (x1 : (⟨S50000x3, .f32⟩ : BufTy).Contents (Elt Ideal))
    (x2 : (⟨S2x600000, .i32⟩ : BufTy).Contents (Elt Ideal)) (x3 : (⟨S128x128, .f32⟩ : BufTy).Contents (Elt Ideal))
    (x4 : (⟨S128, .f32⟩ : BufTy).Contents (Elt Ideal)) (x5 : (⟨S128x3, .f32⟩ : BufTy).Contents (Elt Ideal))
    (x6 : (⟨S3, .f32⟩ : BufTy).Contents (Elt Ideal)) (x7 : (⟨S131x128, .f32⟩ : BufTy).Contents (Elt Ideal))
    (x8 : (⟨S128, .f32⟩ : BufTy).Contents (Elt Ideal)) :
    Read.val_main_v49 (F := Ideal) x0 x1 x2 x3 x4 x5 x6 x7 x8
      = Mlp.messages (R := 600000) (Read.val_main_v44 (F := Ideal) x0 x1 x2 x3 x4 x5 x6) x7 x8 := by
  funext i
  obtain ⟨p, q, rfl⟩ : ∃ (p : Fin 600000) (q : Fin 128), i = ix2 p q := ⟨i 0, i 1, eq_ix2 i⟩
  rw [Read.val_main_v49_apply, Read.val_main_v48_apply, Read.val_main_v45_apply, Read.val_main_v47_apply,
    Read.val_main_v46_apply, Read.val_main_call1_v0_apply, Read.val_main_call1_cst_apply]
  generalize Read.val_main_v44 (F := Ideal) x0 x1 x2 x3 x4 x5 x6 = e
  have hl : ∀ k : Fin 131, Read.lidx_main_v45 (ix2 p q) k = ix2 p k := fun k => idx_eq_ix2 _ p k rfl rfl
  have hr : ∀ k : Fin 131, Read.ridx_main_v45 (ix2 p q) k = ix2 k q := fun k => idx_eq_ix2 _ k q rfl rfl
  have hb : Read.idx_main_v46 (Read.idx_main_v47 (ix2 p q)) = ix1 q := idx_eq_ix1 _ q rfl
  rw [hb, Finset.sum_congr rfl fun k _ => by rw [hl k, hr k]]
  rfl

/-- The hidden layer of the update at node `p` and unit `k`: the rectified dense layer of the node's row of
    aggregated messages, whatever the aggregated messages are. -/
theorem update_hidden (x0 : (⟨S50000x128, .f32⟩ : BufTy).Contents (Elt Ideal)) (x1 : (⟨S50000x3, .f32⟩ : BufTy).Contents (Elt Ideal))
    (x2 : (⟨S2x600000, .i32⟩ : BufTy).Contents (Elt Ideal)) (x3 : (⟨S128x128, .f32⟩ : BufTy).Contents (Elt Ideal))
    (x4 : (⟨S128, .f32⟩ : BufTy).Contents (Elt Ideal)) (x5 : (⟨S128x3, .f32⟩ : BufTy).Contents (Elt Ideal))
    (x6 : (⟨S3, .f32⟩ : BufTy).Contents (Elt Ideal)) (x7 : (⟨S131x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal))
    (p : Fin 50000) (k : Fin 128) :
    Read.val_main_v57 (F := Ideal) x0 x1 x2 x3 x4 x5 x6 x7 x8 x9 x10 (ix2 p k)
      = Mlp.relu (Mlp.dense (fun l => Read.val_main_v52 (F := Ideal) x0 x1 x2 x3 x4 x5 x6 x7 x8 (ix2 p l)) x9 x10 k) := by
  rw [Read.val_main_v57_apply, Read.val_main_v56_apply, Read.val_main_v53_apply, Read.val_main_v55_apply,
    Read.val_main_v54_apply, Read.val_main_call2_v0_apply, Read.val_main_call2_cst_apply]
  generalize Read.val_main_v52 (F := Ideal) x0 x1 x2 x3 x4 x5 x6 x7 x8 = a
  have hl : ∀ l : Fin 128, Read.lidx_main_v53 (ix2 p k) l = ix2 p l := fun l => idx_eq_ix2 _ p l rfl rfl
  have hr : ∀ l : Fin 128, Read.ridx_main_v53 (ix2 p k) l = ix2 l k := fun l => idx_eq_ix2 _ l k rfl rfl
  have hb : Read.idx_main_v54 (Read.idx_main_v55 (ix2 p k)) = ix1 k := idx_eq_ix1 _ k rfl
  rw [hb, Finset.sum_congr rfl fun l _ => by rw [hl l, hr l]]
  rfl

/-- The update stage of the reference is the update perceptron of the aggregated messages and the node features:
    at node `p` and unit `q` it is `x (p, q) + (Σ_k relu (Σ_l a (p, l) · w1 (l, k) + b1 k) · w2 (k, q) + b2 q)`,
    for `a` the aggregated messages, whatever they are. -/
theorem update_eq (x0 : (⟨S50000x128, .f32⟩ : BufTy).Contents (Elt Ideal)) (x1 : (⟨S50000x3, .f32⟩ : BufTy).Contents (Elt Ideal))
    (x2 : (⟨S2x600000, .i32⟩ : BufTy).Contents (Elt Ideal)) (x3 : (⟨S128x128, .f32⟩ : BufTy).Contents (Elt Ideal))
    (x4 : (⟨S128, .f32⟩ : BufTy).Contents (Elt Ideal)) (x5 : (⟨S128x3, .f32⟩ : BufTy).Contents (Elt Ideal))
    (x6 : (⟨S3, .f32⟩ : BufTy).Contents (Elt Ideal)) (x7 : (⟨S131x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) (x11 : (⟨S128x128, .f32⟩ : BufTy).Contents (Elt Ideal))
    (x12 : (⟨S128, .f32⟩ : BufTy).Contents (Elt Ideal)) :
    Read.val_main_v62 (F := Ideal) x0 x1 x2 x3 x4 x5 x6 x7 x8 x9 x10 x11 x12
      = Mlp.update (R := 50000) (Read.val_main_v52 (F := Ideal) x0 x1 x2 x3 x4 x5 x6 x7 x8) x0 x9 x10 x11 x12 := by
  funext i
  obtain ⟨p, q, rfl⟩ : ∃ (p : Fin 50000) (q : Fin 128), i = ix2 p q := ⟨i 0, i 1, eq_ix2 i⟩
  rw [Read.val_main_v62_apply, Read.val_main_v61_apply, Read.val_main_v58_apply, Read.val_main_v60_apply,
    Read.val_main_v59_apply]
  have hl : ∀ k : Fin 128, Read.lidx_main_v58 (ix2 p q) k = ix2 p k := fun k => idx_eq_ix2 _ p k rfl rfl
  have hr : ∀ k : Fin 128, Read.ridx_main_v58 (ix2 p q) k = ix2 k q := fun k => idx_eq_ix2 _ k q rfl rfl
  have hb : Read.idx_main_v59 (Read.idx_main_v60 (ix2 p q)) = ix1 q := idx_eq_ix1 _ q rfl
  rw [hb, Finset.sum_congr rfl fun k _ => by rw [hl k, hr k, update_hidden]]
  generalize Read.val_main_v52 (F := Ideal) x0 x1 x2 x3 x4 x5 x6 x7 x8 = a
  rfl

end Cert.ReferenceIdeal.RefValue

end
-- ==== Proof.RefLayer.lean ====
/-
  The reference's result is the layer of its arguments.

  The reference's host operations between its perceptrons — the edge list split into sources and targets, the row
  gathers, the join, the scatter-add into an array of zeros — are the kernel program's, operation for operation, so
  its joined edge rows and its aggregated messages are the same named functions; with its three perceptrons read
  index by index, its result is the layer of its thirteen arguments.
-/
import proofs.«170734_j31774168056050_1_alg».proof.Proof.RefValue
import proofs.«170734_j31774168056050_1_alg».proof.Proof.Layer

noncomputable section

namespace Cert.ReferenceIdeal.RefLayer

open Cert Cert.ReferenceIdeal Cert.ReferenceIdeal.Gen Idealize.ShloMosaic Idealize.ShloMosaic.TcCoe Idealize.SL.Sem

/-- The reference's joined edge rows are the edge inputs of its positions, edge list, offsets and node features. -/
theorem edge_eq (x0 : (⟨S50000x128, .f32⟩ : BufTy).Contents (Elt Ideal))
    (x1 : (⟨S50000x3, .f32⟩ : BufTy).Contents (Elt Ideal))
    (x2 : (⟨S2x600000, .i32⟩ : BufTy).Contents (Elt Ideal))
    (x3 : (⟨S128x128, .f32⟩ : BufTy).Contents (Elt Ideal))
    (x4 : (⟨S128, .f32⟩ : BufTy).Contents (Elt Ideal))
    (x5 : (⟨S128x3, .f32⟩ : BufTy).Contents (Elt Ideal))
    (x6 : (⟨S3, .f32⟩ : BufTy).Contents (Elt Ideal)) :
    Read.val_main_v44 (F := Ideal) x0 x1 x2 x3 x4 x5 x6
      = Cert.KernelIdeal.Glue.edgeIn (F := Ideal) x1 (Cert.KernelIdeal.Glue.srcOf x2) (Cert.KernelIdeal.Glue.dstOf x2)
          (Read.val_main_v13 (F := Ideal) x0 x3 x4 x5 x6) x0 := rfl

/-- The reference's aggregated messages are its messages added into their targets' rows. -/
theorem aggr_eq (x0 : (⟨S50000x128, .f32⟩ : BufTy).Contents (Elt Ideal))
    (x1 : (⟨S50000x3, .f32⟩ : BufTy).Contents (Elt Ideal))
    (x2 : (⟨S2x600000, .i32⟩ : BufTy).Contents (Elt Ideal))
    (x3 : (⟨S128x128, .f32⟩ : BufTy).Contents (Elt Ideal))
    (x4 : (⟨S128, .f32⟩ : BufTy).Contents (Elt Ideal))
    (x5 : (⟨S128x3, .f32⟩ : BufTy).Contents (Elt Ideal))
    (x6 : (⟨S3, .f32⟩ : BufTy).Contents (Elt Ideal))
    (x7 : (⟨S131x128, .f32⟩ : BufTy).Contents (Elt Ideal))
    (x8 : (⟨S128, .f32⟩ : BufTy).Contents (Elt Ideal)) :
    Read.val_main_v52 (F := Ideal) x0 x1 x2 x3 x4 x5 x6 x7 x8
      = Cert.KernelIdeal.Glue.aggregate (F := Ideal) (Cert.KernelIdeal.Glue.dstOf x2)
          (Read.val_main_v49 (F := Ideal) x0 x1 x2 x3 x4 x5 x6 x7 x8) := rfl

/-- The reference's result stage is the layer of the thirteen arguments. -/
theorem layer_eq (x0 : (⟨S50000x128, .f32⟩ : BufTy).Contents (Elt Ideal))
    (x1 : (⟨S50000x3, .f32⟩ : BufTy).Contents (Elt Ideal))
    (x2 : (⟨S2x600000, .i32⟩ : BufTy).Contents (Elt Ideal))
    (x3 : (⟨S128x128, .f32⟩ : BufTy).Contents (Elt Ideal))
    (x4 : (⟨S128, .f32⟩ : BufTy).Contents (Elt Ideal))
    (x5 : (⟨S128x3, .f32⟩ : BufTy).Contents (Elt Ideal))
    (x6 : (⟨S3, .f32⟩ : BufTy).Contents (Elt Ideal))
    (x7 : (⟨S131x128, .f32⟩ : BufTy).Contents (Elt Ideal))
    (x8 : (⟨S128, .f32⟩ : BufTy).Contents (Elt Ideal))
    (x9 : (⟨S128x128, .f32⟩ : BufTy).Contents (Elt Ideal))
    (x10 : (⟨S128, .f32⟩ : BufTy).Contents (Elt Ideal))
    (x11 : (⟨S128x128, .f32⟩ : BufTy).Contents (Elt Ideal))
    (x12 : (⟨S128, .f32⟩ : BufTy).Contents (Elt Ideal)) :
    Read.val_main_v62 (F := Ideal) x0 x1 x2 x3 x4 x5 x6 x7 x8 x9 x10 x11 x12 = Cert.KernelIdeal.Layer.layer x0 x1 x2 x3 x4 x5 x6 x7 x8 x9 x10 x11 x12 := by
  rw [RefValue.update_eq, aggr_eq, RefValue.messages_eq, edge_eq, RefValue.offsets_eq]
  rfl

end Cert.ReferenceIdeal.RefLayer

end
-- ==== Proof.lean ====
/-
  A message-passing layer on a graph of 50000 nodes and 600000 edges, as three kernels against its array reference.

  Both programs compute, over the extended reals,
    offsets  = tanh (relu (x · h_w1 + h_b1) · h_w2 + h_b2)                        per node,
    e        = [ pos[src] − pos[dst] + offsets[dst] , x[src] ]                     per edge,
    messages = relu (e · f_w + f_b)                                                per edge,
    aggr     = the messages added into their targets' rows of an array of zeros,
    result   = x + (relu (aggr · g_w1 + g_b1) · g_w2 + g_b2)                       per node.
  The kernel program computes the three perceptrons tile by tile (25 tiles of 2000 nodes, 100 tiles of 6000 edges,
  25 tiles of 2000 nodes), each tile's matrix products into a zero accumulator with the operands' float format changed
  on the way in; the reference computes them as whole-array contractions. Over the extended reals a change of float
  format is the identity, a product into a zero accumulator is the row-by-column sum, and each perceptron acts row by
  row, so a tile's result is that tile of the whole array's result, and the tiles cover the array. The host operations
  between the perceptrons are the same in both programs. Hence both results are one function of the thirteen
  arguments (`Layer.layer`); no law of arithmetic beyond this rearrangement is used, so the finiteness of the inputs is
  never opened. The idealized kernel is the kernel's own text read over the extended reals: nothing was rewritten.
-/
import proofs.«170734_j31774168056050_1_alg».proof.Defs
import proofs.«170734_j31774168056050_1_alg».proof.Proof.Gen.Kernel
import proofs.«170734_j31774168056050_1_alg».proof.Proof.Gen.Kernel.Frame
import proofs.«170734_j31774168056050_1_alg».proof.Proof.Gen.KernelIdeal
import proofs.«170734_j31774168056050_1_alg».proof.Proof.Gen.KernelIdeal.Frame
import proofs.«170734_j31774168056050_1_alg».proof.Proof.Gen.ReferenceIdeal
import proofs.«170734_j31774168056050_1_alg».proof.Proof.Gen.ReferenceIdeal.Run
import proofs.«170734_j31774168056050_1_alg».proof.Proof.Gen.ReferenceIdeal.Read
import proofs.«170734_j31774168056050_1_alg».proof.Proof.Gen.Pre_finite_inputs
import proofs.«170734_j31774168056050_1_alg».proof.Proof.KernelRun
import proofs.«170734_j31774168056050_1_alg».proof.Proof.Walk
import proofs.«170734_j31774168056050_1_alg».proof.Proof.Layer
import proofs.«170734_j31774168056050_1_alg».proof.Proof.RefLayer
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- From memories that agree on the thirteen arguments both programs end with the layer of those arguments in their
    result arrays: the kernel program by its run read segment by segment, the reference by its run read stage by
    stage. -/
theorem algebraic : Cert.algebraic_KernelIdeal_ReferenceIdeal := by
  intro m ρ m' ρ' _ hagree
  refine ⟨fun c => Cert.KernelIdeal.Layer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Walk.result m ρ c), (h c).2⟩)
      (Cert.KernelIdeal.KernelRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v62_eq, Cert.ReferenceIdeal.RefLayer.layer_eq,
      h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
